-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x39x64 : Shape := ⟨3, ![16384, 39, 64]⟩
abbrev S39x13 : Shape := ⟨2, ![39, 13]⟩
abbrev S13x39 : Shape := ⟨2, ![13, 39]⟩
abbrev S_ : Shape := ⟨0, ![]⟩

class Facts : Prop where
  bcast_S_S16384x39x64 : S_.BroadcastsInDim S16384x39x64 (![] : Fin 0 → Fin S16384x39x64.rank)
  reducesTo_S16384x39x64_S_d0_1_2 : S16384x39x64.ReducesTo [0, 1, 2] S_
  h_S_ : 0 < S_.numel
  bcast_S_S39x13 : S_.BroadcastsInDim S39x13 (![] : Fin 0 → Fin S39x13.rank)
  reducesTo_S39x13_S_d0_1 : S39x13.ReducesTo [0, 1] S_
  bcast_S_S13x39 : S_.BroadcastsInDim S13x39 (![] : Fin 0 → Fin S13x39.rank)
  reducesTo_S13x39_S_d0_1 : S13x39.ReducesTo [0, 1] S_

variable [Facts]

def fn_part1 {F : FTy → Type} [FloatOps F] (main_arg4 : FVec F S13x39 .f32) (main_v13 : IVec S_ 1) (main_v16 : IVec S39x13 1) : IVec S_ 1 :=
  let main_c_5 : IVec S_ 1 := constantI S_ 1 1#1
  let main_v17 : IVec S_ 1 := (fun x v => Host.reduce IntOp.andi x v reducesTo_S39x13_S_d0_1 h_S_) main_v16 main_c_5
  let main_v18 : IVec S_ 1 := andi main_v13 main_v17
  let main_v19 : FVec F S13x39 .f32 := Host.absf main_arg4
  let main_cst_6 : FVec F S_ .f32 := constant S_ .f32 0x7F800000#32
  let main_v20 : FVec F S13x39 .f32 := broadcastInDim S13x39 ![] bcast_S_S13x39 main_cst_6
  let main_v21 : IVec S13x39 1 := cmpf .olt main_v19 main_v20
  let main_c_7 : IVec S_ 1 := constantI S_ 1 1#1
  let main_v22 : IVec S_ 1 := (fun x v => Host.reduce IntOp.andi x v reducesTo_S13x39_S_d0_1 h_S_) main_v21 main_c_7
  let main_v23 : IVec S_ 1 := andi main_v18 main_v22
  main_v23

def fn {F : FTy → Type} [FloatOps F] (main_arg0 : FVec F S16384x39x64 .f32) (main_arg1 : FVec F S39x13 .f32) (main_arg2 : FVec F S13x39 .f32) (main_arg3 : FVec F S39x13 .f32) (main_arg4 : FVec F S13x39 .f32) : IVec S_ 1 :=
  let main_v0 : FVec F S16384x39x64 .f32 := Host.absf main_arg0
  let main_cst : FVec F S_ .f32 := constant S_ .f32 0x7F800000#32
  let main_v1 : FVec F S16384x39x64 .f32 := broadcastInDim S16384x39x64 ![] bcast_S_S16384x39x64 main_cst
  let main_v2 : IVec S16384x39x64 1 := cmpf .olt main_v0 main_v1
  let main_c : IVec S_ 1 := constantI S_ 1 1#1
  let main_v3 : IVec S_ 1 := (fun x v => Host.reduce IntOp.andi x v reducesTo_S16384x39x64_S_d0_1_2 h_S_) main_v2 main_c
  let main_v4 : FVec F S39x13 .f32 := Host.absf main_arg1
  let main_cst_0 : FVec F S_ .f32 := constant S_ .f32 0x7F800000#32
  let main_v5 : FVec F S39x13 .f32 := broadcastInDim S39x13 ![] bcast_S_S39x13 main_cst_0
  let main_v6 : IVec S39x13 1 := cmpf .olt main_v4 main_v5
  let main_c_1 : IVec S_ 1 := constantI S_ 1 1#1
  let main_v7 : IVec S_ 1 := (fun x v => Host.reduce IntOp.andi x v reducesTo_S39x13_S_d0_1 h_S_) main_v6 main_c_1
  let main_v8 : IVec S_ 1 := andi main_v3 main_v7
  let main_v9 : FVec F S13x39 .f32 := Host.absf main_arg2
  let main_cst_2 : FVec F S_ .f32 := constant S_ .f32 0x7F800000#32
  let main_v10 : FVec F S13x39 .f32 := broadcastInDim S13x39 ![] bcast_S_S13x39 main_cst_2
  let main_v11 : IVec S13x39 1 := cmpf .olt main_v9 main_v10
  let main_c_3 : IVec S_ 1 := constantI S_ 1 1#1
  let main_v12 : IVec S_ 1 := (fun x v => Host.reduce IntOp.andi x v reducesTo_S13x39_S_d0_1 h_S_) main_v11 main_c_3
  let main_v13 : IVec S_ 1 := andi main_v8 main_v12
  let main_v14 : FVec F S39x13 .f32 := Host.absf main_arg3
  let main_cst_4 : FVec F S_ .f32 := constant S_ .f32 0x7F800000#32
  let main_v15 : FVec F S39x13 .f32 := broadcastInDim S39x13 ![] bcast_S_S39x13 main_cst_4
  let main_v16 : IVec S39x13 1 := cmpf .olt main_v14 main_v15
  fn_part1 (F := F) main_arg4 main_v13 main_v16
-- ==== Kernel.lean ====
abbrev S16384x39x64 : Shape := ⟨3, ![16384, 39, 64]⟩
abbrev S39x13 : Shape := ⟨2, ![39, 13]⟩
abbrev S13x39 : Shape := ⟨2, ![13, 39]⟩
abbrev S16384x39x128 : Shape := ⟨3, ![16384, 39, 128]⟩
abbrev S256x39x64 : Shape := ⟨3, ![256, 39, 64]⟩
abbrev S256x39x128 : Shape := ⟨3, ![256, 39, 128]⟩
abbrev S256x39 : Shape := ⟨2, ![256, 39]⟩
abbrev S256x13 : Shape := ⟨2, ![256, 13]⟩
abbrev S256x39x1 : Shape := ⟨3, ![256, 39, 1]⟩

abbrev nBuf : Space → Nat
  | .hbm => 10
  | .vmem => 8
  | .smem => 0
  | _ => 0

abbrev bufTy : (tb : Table) → Fin (tcTables nBuf tb) → BufTy
  | .hbm, ⟨0, _⟩ => ⟨S16384x39x64, .f32⟩
  | .hbm, ⟨1, _⟩ => ⟨S39x13, .f32⟩
  | .hbm, ⟨2, _⟩ => ⟨S13x39, .f32⟩
  | .hbm, ⟨3, _⟩ => ⟨S39x13, .f32⟩
  | .hbm, ⟨4, _⟩ => ⟨S13x39, .f32⟩
  | .hbm, ⟨5, _⟩ => ⟨S39x13, .bf16⟩
  | .hbm, ⟨6, _⟩ => ⟨S13x39, .bf16⟩
  | .hbm, ⟨7, _⟩ => ⟨S39x13, .bf16⟩
  | .hbm, ⟨8, _⟩ => ⟨S13x39, .bf16⟩
  | .hbm, ⟨9, _⟩ => ⟨S16384x39x128, .f32⟩
  | .local _ .vmem, ⟨0, _⟩ => ⟨S256x39x64, .f32⟩
  | .local _ .vmem, ⟨1, _⟩ => ⟨S256x39x64, .f32⟩
  | .local _ .vmem, ⟨2, _⟩ => ⟨S39x13, .bf16⟩
  | .local _ .vmem, ⟨3, _⟩ => ⟨S13x39, .bf16⟩
  | .local _ .vmem, ⟨4, _⟩ => ⟨S39x13, .bf16⟩
  | .local _ .vmem, ⟨5, _⟩ => ⟨S13x39, .bf16⟩
  | .local _ .vmem, ⟨6, _⟩ => ⟨S256x39x128, .f32⟩
  | .local _ .vmem, ⟨7, _⟩ => ⟨S256x39x128, .f32⟩
  | _, _ => ⟨S16384x39x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x39x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S39x13 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S13x39 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S39x13 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S13x39 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x39x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S256x39x64_S256x39x64_0_0_0 : ∀ a, (![0, 0, 0] : Fin 3 → Nat) a + S256x39x64.size a ≤ S256x39x64.size a
  h_S256x39x64 : 0 < S256x39x64.numel
  reduces_S256x39x64_S256x39 : S256x39x64.Reduces [2] S256x39
  inb_S39x13_S39x13_0_0 : ∀ a, (![0, 0] : Fin 2 → Nat) a + S39x13.size a ≤ S39x13.size a
  h_S39x13 : 0 < S39x13.numel
  shapeCasts_S39x13_S39x13 : S39x13.ShapeCasts S39x13
  inb_S13x39_S13x39_0_0 : ∀ a, (![0, 0] : Fin 2 → Nat) a + S13x39.size a ≤ S13x39.size a
  h_S13x39 : 0 < S13x39.numel
  shapeCasts_S13x39_S13x39 : S13x39.ShapeCasts S13x39
  shapeCasts_S256x39_S256x39x1 : S256x39.ShapeCasts S256x39x1
  broadcasts_S256x39x1_S256x39x64 : S256x39x1.Broadcasts S256x39x64
  concatenates_S256x39x64_S256x39x64_S256x39x128_d2 : Shape.Concatenates [S256x39x64, S256x39x64] S256x39x128 2
  inb_S256x39x128_S256x39x128_0_0_0 : ∀ a, (![0, 0, 0] : Fin 3 → Nat) a + S256x39x128.size a ≤ S256x39x128.size a
  h_S256x39x128 : 0 < S256x39x128.numel
  dot_S256x39_S39x13_S256x13_1_0_0_1_n_n_wf : DotDims.WF S256x39 S39x13 S256x13 [1] [0] [0] [1] [] []
  dot_S256x13_S13x39_S256x39_1_0_0_1_n_n_wf : DotDims.WF S256x13 S13x39 S256x39 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x39x64.size a ≤ S16384x39x64.size a
  hwx0_0 : ∀ i : grid0.Coords, EltTy.bits .f32 = 32 ∨ (Rect.block (s := S16384x39x64) S256x39x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S39x13.size a ≤ S39x13.size a
  hwx0_1 : ∀ i : grid0.Coords, EltTy.bits .bf16 = 32 ∨ (Rect.block (s := S39x13) S39x13.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x39.size a ≤ S13x39.size a
  hwx0_2 : ∀ i : grid0.Coords, EltTy.bits .bf16 = 32 ∨ (Rect.block (s := S13x39) S13x39.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S39x13.size a ≤ S39x13.size a
  hwx0_3 : ∀ i : grid0.Coords, EltTy.bits .bf16 = 32 ∨ (Rect.block (s := S39x13) S39x13.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x39.size a ≤ S13x39.size a
  hwx0_4 : ∀ i : grid0.Coords, EltTy.bits .bf16 = 32 ∨ (Rect.block (s := S13x39) S13x39.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x39x128.size a ≤ S16384x39x128.size a
  hwx0_5 : ∀ i : grid0.Coords, EltTy.bits .f32 = 32 ∨ (Rect.block (s := S16384x39x128) S256x39x128.size (cc0_transform_5 i) (hinb0_5 i)).WholeWords (EltTy.packing .f32)

variable [Facts₀]

def dot_S256x39_S39x13_S256x13_1_0_0_1_n_n : DotDims S256x39 S39x13 S256x13 where
  lhsContracting := [1]
  rhsContracting := [0]
  lhsNonContracting := [0]
  rhsNonContracting := [1]
  lhsBatch := []
  rhsBatch := []
  wf := dot_S256x39_S39x13_S256x13_1_0_0_1_n_n_wf
def dot_S256x13_S13x39_S256x39_1_0_0_1_n_n : DotDims S256x13 S13x39 S256x39 where
  lhsContracting := [1]
  rhsContracting := [0]
  lhsNonContracting := [0]
  rhsNonContracting := [1]
  lhsBatch := []
  rhsBatch := []
  wf := dot_S256x13_S13x39_S256x39_1_0_0_1_n_n_wf

abbrev win0_0 : Pipeline.Window sig grid0 :=
  Pipeline.Window.ofSpec (Memref.whole main_arg0) S256x39x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S39x13.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S13x39.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S39x13.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S13x39.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x39x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x39x64 : Shape := ⟨3, ![16384, 39, 64]⟩
abbrev S39x13 : Shape := ⟨2, ![39, 13]⟩
abbrev S13x39 : Shape := ⟨2, ![13, 39]⟩
abbrev S_ : Shape := ⟨0, ![]⟩
abbrev S16384x39 : Shape := ⟨2, ![16384, 39]⟩
abbrev S16384x13 : Shape := ⟨2, ![16384, 13]⟩
abbrev S16384x39x1 : Shape := ⟨3, ![16384, 39, 1]⟩
abbrev S16384x39x128 : Shape := ⟨3, ![16384, 39, 128]⟩

abbrev nBuf : Space → Nat
  | .hbm => 45
  | .vmem => 0
  | .smem => 0
  | _ => 0

abbrev bufTy : (tb : Table) → Fin (tcTables nBuf tb) → BufTy
  | .hbm, ⟨0, _⟩ => ⟨S16384x39x64, .f32⟩
  | .hbm, ⟨1, _⟩ => ⟨S39x13, .f32⟩
  | .hbm, ⟨2, _⟩ => ⟨S13x39, .f32⟩
  | .hbm, ⟨3, _⟩ => ⟨S39x13, .f32⟩
  | .hbm, ⟨4, _⟩ => ⟨S13x39, .f32⟩
  | .hbm, ⟨5, _⟩ => ⟨S_, .f32⟩
  | .hbm, ⟨6, _⟩ => ⟨S16384x39, .f32⟩
  | .hbm, ⟨7, _⟩ => ⟨S_, .f32⟩
  | .hbm, ⟨8, _⟩ => ⟨S16384x39, .f32⟩
  | .hbm, ⟨9, _⟩ => ⟨S16384x39, .f32⟩
  | .hbm, ⟨10, _⟩ => ⟨S16384x13, .f32⟩
  | .hbm, ⟨11, _⟩ => ⟨S_, .f32⟩
  | .hbm, ⟨12, _⟩ => ⟨S16384x13, .f32⟩
  | .hbm, ⟨13, _⟩ => ⟨S16384x13, .f32⟩
  | .hbm, ⟨14, _⟩ => ⟨S16384x39, .f32⟩
  | .hbm, ⟨15, _⟩ => ⟨S_, .f32⟩
  | .hbm, ⟨16, _⟩ => ⟨S16384x39, .f32⟩
  | .hbm, ⟨17, _⟩ => ⟨S16384x39, .f32⟩
  | .hbm, ⟨18, _⟩ => ⟨S16384x39x1, .f32⟩
  | .hbm, ⟨19, _⟩ => ⟨S16384x39x64, .f32⟩
  | .hbm, ⟨20, _⟩ => ⟨S16384x39x64, .f32⟩
  | .hbm, ⟨21, _⟩ => ⟨S16384x39x64, .f32⟩
  | .hbm, ⟨22, _⟩ => ⟨S_, .f32⟩
  | .hbm, ⟨23, _⟩ => ⟨S16384x39, .f32⟩
  | .hbm, ⟨24, _⟩ => ⟨S_, .f32⟩
  | .hbm, ⟨25, _⟩ => ⟨S16384x39, .f32⟩
  | .hbm, ⟨26, _⟩ => ⟨S16384x39, .f32⟩
  | .hbm, ⟨27, _⟩ => ⟨S16384x13, .f32⟩
  | .hbm, ⟨28, _⟩ => ⟨S_, .f32⟩
  | .hbm, ⟨29, _⟩ => ⟨S16384x13, .f32⟩
  | .hbm, ⟨30, _⟩ => ⟨S16384x13, .f32⟩
  | .hbm, ⟨31, _⟩ => ⟨S16384x39, .f32⟩
  | .hbm, ⟨32, _⟩ => ⟨S_, .f32⟩
  | .hbm, ⟨33, _⟩ => ⟨S16384x39, .f32⟩
  | .hbm, ⟨34, _⟩ => ⟨S16384x39, .f32⟩
  | .hbm, ⟨35, _⟩ => ⟨S16384x39, .f32⟩
  | .hbm, ⟨36, _⟩ => ⟨S16384x39x1, .f32⟩
  | .hbm, ⟨37, _⟩ => ⟨S16384x39x64, .f32⟩
  | .hbm, ⟨38, _⟩ => ⟨S16384x39x64, .f32⟩
  | .hbm, ⟨39, _⟩ => ⟨S_, .f32⟩
  | .hbm, ⟨40, _⟩ => ⟨S16384x39x64, .f32⟩
  | .hbm, ⟨41, _⟩ => ⟨S16384x39x64, .f32⟩
  | .hbm, ⟨42, _⟩ => ⟨S16384x39x64, .f32⟩
  | .hbm, ⟨43, _⟩ => ⟨S16384x39x64, .f32⟩
  | .hbm, ⟨44, _⟩ => ⟨S16384x39x128, .f32⟩
  | _, _ => ⟨S16384x39x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_call1_cst : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call2_cst : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_call3_cst : Ref sig .tc := ⟨.hbm, 32, rfl⟩
abbrev main_call3_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]

class Facts₀ : Prop where
  reducesTo_S16384x39x64_S16384x39_d2 : S16384x39x64.ReducesTo [2] S16384x39
  h_S_ : 0 < S_.numel
  bcast_S_S16384x39 : S_.BroadcastsInDim S16384x39 (![] : Fin 0 → Fin S16384x39.rank)
  bcast_S_S16384x13 : S_.BroadcastsInDim S16384x13 (![] : Fin 0 → Fin S16384x13.rank)
  bcast_S16384x39_S16384x39x1_0_1 : S16384x39.BroadcastsInDim S16384x39x1 (![0, 1] : Fin 2 → Fin S16384x39x1.rank)
  bcast_S16384x39x1_S16384x39x64_0_1_2 : S16384x39x1.BroadcastsInDim S16384x39x64 (![0, 1, 2] : Fin 3 → Fin S16384x39x64.rank)
  bcast_S_S16384x39x64 : S_.BroadcastsInDim S16384x39x64 (![] : Fin 0 → Fin S16384x39x64.rank)
  concatenates_S16384x39x64_S16384x39x64_S16384x39x128_d2 : Shape.Concatenates [S16384x39x64, S16384x39x64] S16384x39x128 2
  dot_S16384x39_S39x13_S16384x13_1_0_0_1_n_n_wf : DotDims.WF S16384x39 S39x13 S16384x13 [1] [0] [0] [1] [] []
  dot_S16384x13_S13x39_S16384x39_1_0_0_1_n_n_wf : DotDims.WF S16384x13 S13x39 S16384x39 [1] [0] [0] [1] [] []

variable [Facts₀]

def dot_S16384x39_S39x13_S16384x13_1_0_0_1_n_n : DotDims S16384x39 S39x13 S16384x13 where
  lhsContracting := [1]
  rhsContracting := [0]
  lhsNonContracting := [0]
  rhsNonContracting := [1]
  lhsBatch := []
  rhsBatch := []
  wf := dot_S16384x39_S39x13_S16384x13_1_0_0_1_n_n_wf
def dot_S16384x13_S13x39_S16384x39_1_0_0_1_n_n : DotDims S16384x13 S13x39 S16384x39 where
  lhsContracting := [1]
  rhsContracting := [0]
  lhsNonContracting := [0]
  rhsNonContracting := [1]
  lhsBatch := []
  rhsBatch := []
  wf := dot_S16384x13_S13x39_S16384x39_1_0_0_1_n_n_wf

class Facts : Prop extends Facts₀ where

variable [Facts]
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibFields.lean ====
/-
  Arrays of fields: an [a, b, c] array summed, and a per-field number spread, along the last axis.

  At the extended reals the sum of an [a, b, c] vector along its last axis (a lane reduction into [a, b], from the
  additive neutral word) is, at (p, f), the plain sum over k of the entries (p, f, k); the host's sum is the initial
  value plus that.  An [a, b] array viewed as [a, b, 1] holds at (p, f, 0) the array's entry (p, f), and an
  [a, b, 1] array spread over [a, b, c] holds at (p, f, k) the entry (p, f, 0).  Two arrays joined along the last
  axis hold the first array's entries first and the second's after them.
-/
import Idealize.ShloMosaic.Lib.Pipeline.Value
import Idealize.ShloMosaic.Lib.ValueIdx
import Idealize.ShloMosaic.PureOps.Ideal.Laws

noncomputable section

open scoped BigOperators

namespace Cert.LibFields

open Idealize.ShloMosaic Idealize.ShloMosaic.ValueIdx

variable {α : Type} {a b c : ℕ}

/-- The index (p, f) with the last coordinate k put back is (p, f, k). -/
theorem lift_field (h : (⟨3, ![a, b, c]⟩ : Shape).Reduces [2] ⟨2, ![a, b]⟩) (p : Fin a) (f : Fin b)
    (k : Fin ((⟨3, ![a, b, c]⟩ : Shape).size 2)) : h.lift (ix2 p f) k = ix3 p f (⟨k.val, k.isLt⟩ : Fin c) := by
  funext ax
  refine Fin.ext ?_
  match ax with
  | ⟨0, _⟩ => rfl
  | ⟨1, _⟩ => rfl
  | ⟨2, _⟩ => rfl

/-- A lane sum of an [a, b, c] f32 vector along its last axis, at (p, f): the sum over k of the entries (p, f, k). -/
theorem fieldSum_apply (v : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (f : Fin b) :
    multiReduction .add [2] ⟨2, ![a, b]⟩ v acc h hφ hacc (ix2 p f) = ∑ k : Fin c, v (ix3 p f k) := by
  refine (Ideal.multiReduction_add_single v acc h hφ hacc (ix2 p f)).trans ?_
  exact Finset.sum_congr rfl fun k _ => congrArg v (lift_field h p f k)

/-- The host's sum of an [a, b, c] array along its last axis, at (p, f): the initial value plus the sum over k of
    the entries (p, f, k). -/
theorem hostFieldSum_apply {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (f : Fin b) :
    Host.reduceAdd (F := Ideal) x init h' hu (ix2 p f) = init (Shape.Idx.first hu) + ∑ k : Fin c, x (ix3 p f k) := by
  unfold Host.reduceAdd
  rw [Ideal.hostReduceAdd_def, Ideal.hostReduceAdd_single h' h]
  exact congrArg (_ + ·) (Finset.sum_congr rfl fun k _ => congrArg x (lift_field h p f k))

/-- An [a, b] array viewed as [a, b, 1] reads, at (p, f, 0), the array's entry (p, f). -/
theorem shapeCast_ab_ab1_apply (x : (⟨2, ![a, b]⟩ : Shape).Idx → α)
    (h : (⟨2, ![a, b]⟩ : Shape).ShapeCasts ⟨3, ![a, b, 1]⟩) (p : Fin a) (f : Fin b) (z : Fin 1) :
    shapeCast ⟨3, ![a, b, 1]⟩ x h (ix3 p f z) = x (ix2 p f) :=
  shapeCast_apply x h _ _ (by
    rw [Shape.rowMajor_val_two, Shape.rowMajor_val_three]
    show p.val * b + f.val = (p.val * b + f.val) * 1 + z.val
    have := z.isLt
    omega)

/-- An [a, b, 1] array spread over [a, b, c] reads, at (p, f, k), the array's entry (p, f, 0). -/
theorem broadcastTo_ab1_abc_apply (x : (⟨3, ![a, b, 1]⟩ : Shape).Idx → α)
    (h : (⟨3, ![a, b, 1]⟩ : Shape).Broadcasts ⟨3, ![a, b, c]⟩) (p : Fin a) (f : Fin b) (k : Fin c) :
    broadcastTo ⟨3, ![a, b, c]⟩ x h (ix3 p f k) = x (ix3 p f (0 : Fin 1)) :=
  broadcastTo_apply x h _ _ (fun ax => by
    match ax with
    | ⟨0, _⟩ =>
      show p.val = if a = 1 then 0 else p.val
      split
      · have := p.isLt; omega
      · rfl
    | ⟨1, _⟩ =>
      show f.val = if b = 1 then 0 else f.val
      split
      · have := f.isLt; omega
      · rfl
    | ⟨2, _⟩ =>
      show 0 = if (1 : ℕ) = 1 then 0 else k.val
      rw [if_pos rfl])

end Cert.LibFields

end
-- ==== Proof.Shrink.lean ====
/-
  The mathematics of one row, away from any program.

  A row is 39 fields of 64 numbers.  Each field is averaged; the 39 averages pass through two small dense layers,
  each followed by a clamp at zero, and the 39 numbers that come out weigh the fields.  The same is done with the
  averages of the absolute values, and the outcome, times the field's mean absolute value, is a threshold that is
  never negative.  The row's 128 outputs per field are the 64 weighted entries followed by the 64 entries shrunk
  towards zero by the threshold.  The shrinkage is written in two ways: an entry less its clipping to [-t, t], or
  the entry's sign times the positive part of (|entry| - t).  For a real entry and any threshold in [0, +∞] of the
  extended reals these agree, which is the one law this certificate needs.
-/
import Idealize.ShloMosaic.PureOps.Ideal
import Idealize.ShloMosaic.PureOps.Ideal.Laws

noncomputable section

open scoped BigOperators

namespace Cert.Shrink

open Idealize.ShloMosaic

/-! ## The two spellings of the shrinkage -/

/-- An entry less its clipping to the interval [-t, t]. -/
def clipForm (x t : EReal) : EReal := x - min t (max (0 - t) x)

/-- The entry's sign times the positive part of its magnitude less the threshold. -/
def signForm (x t : EReal) : EReal := Ideal.sign x * max (max x (-x) - t) 0

theorem coe_max' (a b : ℝ) : max (a : EReal) (b : EReal) = ((max a b : ℝ) : EReal) :=
  (EReal.coe_strictMono.monotone.map_max).symm

theorem coe_min' (a b : ℝ) : min (a : EReal) (b : EReal) = ((min a b : ℝ) : EReal) :=
  (EReal.coe_strictMono.monotone.map_min).symm

/-- On the reals: x - clip(x, -s, s) = sign x · max(|x| - s, 0), for s ≥ 0. -/
theorem real_shrink (x s : ℝ) (hs : 0 ≤ s) :
    x - min s (max (-s) x) = (SignType.sign x : ℝ) * max (max x (-x) - s) 0 := by
  rcases lt_trichotomy x 0 with h | h | h
  · rw [sign_neg h, max_eq_right (by linarith : x ≤ -x)]
    rcases le_total (-x) s with h' | h'
    · rw [max_eq_right (by linarith : -s ≤ x), min_eq_right (by linarith : x ≤ s), max_eq_right (by linarith)]
      simp only [SignType.coe_neg_one]; ring
    · rw [max_eq_left (by linarith : x ≤ -s), min_eq_right (by linarith : -s ≤ s), max_eq_left (by linarith)]
      simp only [SignType.coe_neg_one]; ring
  · subst h
    rw [max_eq_right (by linarith : -s ≤ 0), min_eq_right hs]
    simp
  · rw [sign_pos h, max_eq_left (by linarith : -x ≤ x)]
    rcases le_total x s with h' | h'
    · rw [max_eq_right (by linarith : -s ≤ x), min_eq_right h', max_eq_right (by linarith)]
      simp only [SignType.coe_one]; ring
    · rw [max_eq_right (by linarith : -s ≤ x), min_eq_left h', max_eq_left (by linarith)]
      simp only [SignType.coe_one]; ring

/-- The two spellings agree at a real entry, for every threshold from 0 up to and including +∞. -/
theorem clipForm_eq_signForm (x : ℝ) (t : EReal) (ht : 0 ≤ t) : clipForm (x : EReal) t = signForm (x : EReal) t := by
  unfold clipForm signForm
  induction t using EReal.rec with
  | bot => exact absurd ht (by simp)
  | top =>
    have h1 : (0 : EReal) - ⊤ = ⊥ := by simp
    have h2 : ∀ r : ℝ, (r : EReal) - ⊤ = ⊥ := fun r => by rw [sub_eq_add_neg, EReal.neg_top]; exact EReal.add_bot _
    rw [h1, max_eq_right (bot_le : (⊥ : EReal) ≤ x), min_eq_right (le_top : (x : EReal) ≤ ⊤),
      EReal.sub_self (EReal.coe_ne_top x) (EReal.coe_ne_bot x), ← EReal.coe_neg, coe_max', h2,
      max_eq_right (bot_le : (⊥ : EReal) ≤ 0), mul_zero]
  | coe s =>
    have hs : 0 ≤ s := EReal.coe_nonneg.mp ht
    rw [zero_sub, ← EReal.coe_neg, coe_max', coe_min', ← EReal.coe_sub, Ideal.sign_coe, ← EReal.coe_neg x, coe_max',
      ← EReal.coe_sub, ← EReal.coe_zero, coe_max', ← EReal.coe_mul, real_shrink x s hs]

/-! ## A row -/

/-- The word both programs divide a field's sum by. -/
def c64 : EReal := Ideal.ofBits .f32 0x42800000#32

theorem c64_eq : c64 = ((64 : ℝ) : EReal) := by
  unfold c64
  simp [Ideal.ofBits, Ideal.ieee, -EReal.coe_mul]; norm_num

/-- A field's mean: the sum of its 64 numbers over 64. -/
def mean (r : Fin 64 → EReal) : EReal := Ideal.div (∑ k, r k) c64

/-- The first dense layer and its clamp: 39 numbers to 13. -/
def squeeze (z : Fin 39 → EReal) (W : Fin 39 → Fin 13 → EReal) (j : Fin 13) : EReal := max (∑ i, z i * W i j) 0

/-- The second dense layer and its clamp: back to one weight per field. -/
def excite (z : Fin 39 → EReal) (W : Fin 39 → Fin 13 → EReal) (W' : Fin 13 → Fin 39 → EReal) (f : Fin 39) : EReal :=
  max (∑ j, squeeze z W j * W' j f) 0

/-- A field's mean absolute value. -/
def absMean (r : Fin 64 → EReal) : EReal := mean fun k => max (r k) (-(r k))

/-- A field's threshold. -/
def thres (R : Fin 39 → Fin 64 → EReal) (W : Fin 39 → Fin 13 → EReal) (W' : Fin 13 → Fin 39 → EReal) (f : Fin 39) : EReal :=
  absMean (R f) * excite (fun i => absMean (R i)) W W' f

/-- A field's entry weighted by the field's weight. -/
def gated (R : Fin 39 → Fin 64 → EReal) (W : Fin 39 → Fin 13 → EReal) (W' : Fin 13 → Fin 39 → EReal) (f : Fin 39) (k : Fin 64) : EReal :=
  R f k * excite (fun i => mean (R i)) W W' f

/-- The entry a position of the doubled field comes from. -/
def half (e : Fin 128) : Fin 64 := ⟨e.val % 64, Nat.mod_lt _ (by norm_num)⟩

/-- The row's outputs with the shrinkage spelt by clipping, -/
def rowClip (R : Fin 39 → Fin 64 → EReal) (W1 : Fin 39 → Fin 13 → EReal) (W2 : Fin 13 → Fin 39 → EReal)
    (W3 : Fin 39 → Fin 13 → EReal) (W4 : Fin 13 → Fin 39 → EReal) (f : Fin 39) (e : Fin 128) : EReal :=
  if e.val < 64 then gated R W1 W2 f (half e) else clipForm (R f (half e)) (thres R W3 W4 f)

/-- and by sign and positive part. -/
def rowSign (R : Fin 39 → Fin 64 → EReal) (W1 : Fin 39 → Fin 13 → EReal) (W2 : Fin 13 → Fin 39 → EReal)
    (W3 : Fin 39 → Fin 13 → EReal) (W4 : Fin 13 → Fin 39 → EReal) (f : Fin 39) (e : Fin 128) : EReal :=
  if e.val < 64 then gated R W1 W2 f (half e) else signForm (R f (half e)) (thres R W3 W4 f)

theorem abs_nonneg' (a : EReal) : 0 ≤ max a (-a) := by
  rcases le_total 0 a with h | h
  · exact le_max_of_le_left h
  · exact le_max_of_le_right (EReal.neg_nonneg.mpr h)

theorem absMean_nonneg (r : Fin 64 → EReal) : 0 ≤ absMean r := by
  unfold absMean mean
  rw [c64_eq, Ideal.div_coe (by norm_num : (64 : ℝ) ≠ 0)]
  exact EReal.mul_nonneg (Finset.sum_nonneg fun k _ => abs_nonneg' (r k)) (EReal.coe_nonneg.mpr (by norm_num))

/-- The threshold is never negative, whatever the weights. -/
theorem thres_nonneg (R : Fin 39 → Fin 64 → EReal) (W : Fin 39 → Fin 13 → EReal) (W' : Fin 13 → Fin 39 → EReal) (f : Fin 39) :
    0 ≤ thres R W W' f :=
  EReal.mul_nonneg (absMean_nonneg _) (le_max_right _ _)

/-- On a row of real numbers the two spellings give the same outputs. -/
theorem rowClip_eq_rowSign (R : Fin 39 → Fin 64 → EReal) (hR : ∀ f k, ∃ r : ℝ, R f k = (r : EReal))
    (W1 : Fin 39 → Fin 13 → EReal) (W2 : Fin 13 → Fin 39 → EReal) (W3 : Fin 39 → Fin 13 → EReal) (W4 : Fin 13 → Fin 39 → EReal)
    (f : Fin 39) (e : Fin 128) : rowClip R W1 W2 W3 W4 f e = rowSign R W1 W2 W3 W4 f e := by
  unfold rowClip rowSign
  split
  · rfl
  · obtain ⟨r, hr⟩ := hR f (half e)
    rw [hr]
    exact clipForm_eq_signForm r _ (thres_nonneg R W3 W4 f)

end Cert.Shrink

end
-- ==== Proof.KernelRow.lean ====
/-
  One grid point's output block, read at an entry.

  The body works on a block of 256 rows.  At local row p, field f and position e of the doubled field, the block it
  stores holds the row's output: for e < 64 the entry (p, f, e) of the input block times the field's weight, and for
  e ≥ 64 the entry (p, f, e - 64) less its clipping to plus or minus the field's threshold.  The weights and the
  thresholds are the row's own: the field means of row p through the two dense layers, each a matrix product into a
  zero accumulator followed by a clamp at zero.  Changes of float format are the identity at the extended reals.
-/
import proofs.«118509_j28080496181753_2_alg».proof.Proof.Gen.KernelIdeal.Value
import proofs.«118509_j28080496181753_2_alg».proof.Proof.LibDense
import proofs.«118509_j28080496181753_2_alg».proof.Proof.LibFields
import proofs.«118509_j28080496181753_2_alg».proof.Proof.Shrink
import Idealize.ShloMosaic.Lib.Pipeline.Value
import Idealize.ShloMosaic.Lib.ValueIdx
import Idealize.ShloMosaic.PureOps.Ideal.Laws

set_option maxRecDepth 16384

noncomputable section

open scoped BigOperators

namespace Cert.KernelRow

open Cert.KernelIdeal Cert.KernelIdeal.Gen Idealize.ShloMosaic Idealize.ShloMosaic.ValueIdx Cert.Shrink

/-! ## The two matrix products' operand indices -/

theorem d1_l0 (i : S256x13.Idx) (q : dot_S256x39_S39x13_S256x13_1_0_0_1_n_n.contr.Idx) :
    (dot_S256x39_S39x13_S256x13_1_0_0_1_n_n.lhsIdx i q 0).val = (i 0).val := by
  unfold DotDims.lhsIdx
  rw [dif_neg (show ¬(0 : Fin S256x39.rank) ∈ dot_S256x39_S39x13_S256x13_1_0_0_1_n_n.lhsBatch by decide), dif_pos (show (0 : Fin S256x39.rank) ∈ dot_S256x39_S39x13_S256x13_1_0_0_1_n_n.lhsNonContracting by decide)]
  rfl
theorem d1_l1 (i : S256x13.Idx) (q : dot_S256x39_S39x13_S256x13_1_0_0_1_n_n.contr.Idx) :
    (dot_S256x39_S39x13_S256x13_1_0_0_1_n_n.lhsIdx i q 1).val = (q ⟨0, by decide⟩).val :=
  dot_S256x39_S39x13_S256x13_1_0_0_1_n_n.lhsIdx_val_of_single rfl i q
theorem d1_r0 (i : S256x13.Idx) (q : dot_S256x39_S39x13_S256x13_1_0_0_1_n_n.contr.Idx) :
    (dot_S256x39_S39x13_S256x13_1_0_0_1_n_n.rhsIdx i q 0).val = (q ⟨0, by decide⟩).val :=
  dot_S256x39_S39x13_S256x13_1_0_0_1_n_n.rhsIdx_val_of_single rfl i q
theorem d1_r1 (i : S256x13.Idx) (q : dot_S256x39_S39x13_S256x13_1_0_0_1_n_n.contr.Idx) :
    (dot_S256x39_S39x13_S256x13_1_0_0_1_n_n.rhsIdx i q 1).val = (i 1).val := by
  unfold DotDims.rhsIdx
  rw [dif_neg (show ¬(1 : Fin S39x13.rank) ∈ dot_S256x39_S39x13_S256x13_1_0_0_1_n_n.rhsBatch by decide), dif_pos (show (1 : Fin S39x13.rank) ∈ dot_S256x39_S39x13_S256x13_1_0_0_1_n_n.rhsNonContracting by decide)]
  rfl

theorem d2_l0 (i : S256x39.Idx) (q : dot_S256x13_S13x39_S256x39_1_0_0_1_n_n.contr.Idx) :
    (dot_S256x13_S13x39_S256x39_1_0_0_1_n_n.lhsIdx i q 0).val = (i 0).val := by
  unfold DotDims.lhsIdx
  rw [dif_neg (show ¬(0 : Fin S256x13.rank) ∈ dot_S256x13_S13x39_S256x39_1_0_0_1_n_n.lhsBatch by decide), dif_pos (show (0 : Fin S256x13.rank) ∈ dot_S256x13_S13x39_S256x39_1_0_0_1_n_n.lhsNonContracting by decide)]
  rfl
theorem d2_l1 (i : S256x39.Idx) (q : dot_S256x13_S13x39_S256x39_1_0_0_1_n_n.contr.Idx) :
    (dot_S256x13_S13x39_S256x39_1_0_0_1_n_n.lhsIdx i q 1).val = (q ⟨0, by decide⟩).val :=
  dot_S256x13_S13x39_S256x39_1_0_0_1_n_n.lhsIdx_val_of_single rfl i q
theorem d2_r0 (i : S256x39.Idx) (q : dot_S256x13_S13x39_S256x39_1_0_0_1_n_n.contr.Idx) :
    (dot_S256x13_S13x39_S256x39_1_0_0_1_n_n.rhsIdx i q 0).val = (q ⟨0, by decide⟩).val :=
  dot_S256x13_S13x39_S256x39_1_0_0_1_n_n.rhsIdx_val_of_single rfl i q
theorem d2_r1 (i : S256x39.Idx) (q : dot_S256x13_S13x39_S256x39_1_0_0_1_n_n.contr.Idx) :
    (dot_S256x13_S13x39_S256x39_1_0_0_1_n_n.rhsIdx i q 1).val = (i 1).val := by
  unfold DotDims.rhsIdx
  rw [dif_neg (show ¬(1 : Fin S13x39.rank) ∈ dot_S256x13_S13x39_S256x39_1_0_0_1_n_n.rhsBatch by decide), dif_pos (show (1 : Fin S13x39.rank) ∈ dot_S256x13_S13x39_S256x39_1_0_0_1_n_n.rhsNonContracting by decide)]
  rfl

/-! ## The body's stages, each read at an entry -/

/-- The field means of the block: the lane sums over 64. -/
def means (v : FVec Ideal S256x39x64 .f32) : FVec Ideal S256x39 .f32 :=
  divf (multiReduction .add [2] S256x39 v 0x00000000#32 reduces_S256x39x64_S256x39 (.inl rfl) rfl)
    (broadcast S256x39 (Scalar.ofBits (F := Ideal) .f32 0x42800000#32))

theorem means_apply (v : FVec Ideal S256x39x64 .f32) (p : Fin 256) (f : Fin 39) :
    means v (ix2 p f) = mean fun k => v (ix3 p f k) := by
  show Ideal.div (multiReduction .add [2] S256x39 v 0x00000000#32 reduces_S256x39x64_S256x39 (.inl rfl) rfl (ix2 p f)) c64
    = Ideal.div (∑ k, v (ix3 p f k)) c64
  exact congrArg (Ideal.div · c64) (LibFields.fieldSum_apply (a := 256) (b := 39) (c := 64) v _ reduces_S256x39x64_S256x39 _ _ p f)

/-- The first dense layer with its clamp, on the whole block. -/
def layer1 (z : FVec Ideal S256x39 .f32) (W : FVec Ideal S39x13 .bf16) : FVec Ideal S256x13 .f32 :=
  maximumf (matmul dot_S256x39_S39x13_S256x13_1_0_0_1_n_n none (truncf .bf16 z bitsLt_bf16_f32)
      (shapeCast S39x13 W shapeCasts_S39x13_S39x13) (constant S256x13 .f32 0x00000000#32))
    (broadcast S256x13 (Scalar.ofBits (F := Ideal) .f32 0x00000000#32))

theorem layer1_apply (z : FVec Ideal S256x39 .f32) (W : FVec Ideal S39x13 .bf16) (p : Fin 256) (j : Fin 13) :
    layer1 z W (ix2 p j) = squeeze (fun i => z (ix2 p i)) (fun i j => W (ix2 i j)) j := by
  show max (FloatOps.matmul dot_S256x39_S39x13_S256x13_1_0_0_1_n_n none (truncf .bf16 z bitsLt_bf16_f32)
      (shapeCast S39x13 W shapeCasts_S39x13_S39x13) (constant (F := Ideal) S256x13 .f32 0x00000000#32) (ix2 p j))
    (Ideal.ofBits .f32 0x00000000#32) = _
  rw [shapeCast_self, LibDense.matmul_zero_apply dot_S256x39_S39x13_S256x13_1_0_0_1_n_n rfl rfl d1_l0 d1_l1 d1_r0 d1_r1,
    Ideal.ofBits_zero_f32]
  rfl

/-- The second dense layer with its clamp, on the whole block. -/
def layer2 (h : FVec Ideal S256x13 .f32) (W : FVec Ideal S13x39 .bf16) : FVec Ideal S256x39 .f32 :=
  maximumf (matmul dot_S256x13_S13x39_S256x39_1_0_0_1_n_n none (truncf .bf16 h bitsLt_bf16_f32)
      (shapeCast S13x39 W shapeCasts_S13x39_S13x39) (constant S256x39 .f32 0x00000000#32))
    (broadcast S256x39 (Scalar.ofBits (F := Ideal) .f32 0x00000000#32))

theorem layer2_apply (h : FVec Ideal S256x13 .f32) (W : FVec Ideal S13x39 .bf16) (p : Fin 256) (f : Fin 39) :
    layer2 h W (ix2 p f) = max (∑ j : Fin 13, h (ix2 p j) * W (ix2 j f)) 0 := by
  show max (FloatOps.matmul dot_S256x13_S13x39_S256x39_1_0_0_1_n_n none (truncf .bf16 h bitsLt_bf16_f32)
      (shapeCast S13x39 W shapeCasts_S13x39_S13x39) (constant (F := Ideal) S256x39 .f32 0x00000000#32) (ix2 p f))
    (Ideal.ofBits .f32 0x00000000#32) = _
  rw [shapeCast_self, LibDense.matmul_zero_apply dot_S256x13_S13x39_S256x39_1_0_0_1_n_n rfl rfl d2_l0 d2_l1 d2_r0 d2_r1,
    Ideal.ofBits_zero_f32]
  rfl

/-- The two layers at (p, f): the field's weight of row p. -/
theorem layers_apply (z : FVec Ideal S256x39 .f32) (W : FVec Ideal S39x13 .bf16) (W' : FVec Ideal S13x39 .bf16) (p : Fin 256) (f : Fin 39) :
    layer2 (layer1 z W) W' (ix2 p f) = excite (fun i => z (ix2 p i)) (fun i j => W (ix2 i j)) (fun j f => W' (ix2 j f)) f := by
  rw [layer2_apply]
  simp only [layer1_apply]
  rfl

/-- A per-field number spread along the field, at (p, f, k). -/
theorem spread_apply (A : FVec Ideal S256x39 .f32) (p : Fin 256) (f : Fin 39) (k : Fin 64) :
    broadcastTo S256x39x64 (shapeCast S256x39x1 A shapeCasts_S256x39_S256x39x1) broadcasts_S256x39x1_S256x39x64 (ix3 p f k)
      = A (ix2 p f) := by
  rw [LibFields.broadcastTo_ab1_abc_apply, LibFields.shapeCast_ab_ab1_apply]

/-- The weighted half of the output. -/
theorem weighted_eq (P0 : Vec Ideal S256x39x64 .f32) (P1 : Vec Ideal S39x13 .bf16) (P2 : Vec Ideal S13x39 .bf16) :
    k0_pay2 (F := Ideal) P0 P1 P2
      = mulf P0 (broadcastTo S256x39x64 (shapeCast S256x39x1 (layer2 (layer1 (means P0) P1) P2) shapeCasts_S256x39_S256x39x1) broadcasts_S256x39x1_S256x39x64) := rfl

theorem weighted_apply (P0 : Vec Ideal S256x39x64 .f32) (P1 : Vec Ideal S39x13 .bf16) (P2 : Vec Ideal S13x39 .bf16)
    (p : Fin 256) (f : Fin 39) (k : Fin 64) :
    k0_pay2 (F := Ideal) P0 P1 P2 (ix3 p f k)
      = gated (fun i k => P0 (ix3 p i k)) (fun i j => P1 (ix2 i j)) (fun j f => P2 (ix2 j f)) f k := by
  rw [weighted_eq]
  show P0 (ix3 p f k) * _ = _
  rw [spread_apply, layers_apply]
  simp only [means_apply]
  rfl

/-- The thresholds of the block. -/
theorem thresholds_eq (P0 : Vec Ideal S256x39x64 .f32) (P3 : Vec Ideal S39x13 .bf16) (P4 : Vec Ideal S13x39 .bf16) :
    k0_pay3 (F := Ideal) P0 P3 P4 = mulf (means (absf P0)) (layer2 (layer1 (means (absf P0)) P3) P4) := rfl

theorem thresholds_apply (P0 : Vec Ideal S256x39x64 .f32) (P3 : Vec Ideal S39x13 .bf16) (P4 : Vec Ideal S13x39 .bf16)
    (p : Fin 256) (f : Fin 39) :
    k0_pay3 (F := Ideal) P0 P3 P4 (ix2 p f)
      = thres (fun i k => P0 (ix3 p i k)) (fun i j => P3 (ix2 i j)) (fun j f => P4 (ix2 j f)) f := by
  rw [thresholds_eq]
  show means (absf P0) (ix2 p f) * _ = _
  rw [layers_apply]
  simp only [means_apply]
  rfl

end Cert.KernelRow

end
-- ==== Proof.KernelBlock.lean ====
/-
  What a grid point stores, as the row function of the block it read.

  The body's one store covers the whole output block, and its loads read the whole input blocks, so the stored block
  is the body's arithmetic of the input blocks.  Entry (p, f, e) of it is the output of row p of the input block:
  positions below 64 hold the weighted entries, the others the entries less their clipping.
-/
import proofs.«118509_j28080496181753_2_alg».proof.Proof.KernelRow

set_option maxRecDepth 16384

noncomputable section

open scoped BigOperators

namespace Cert.KernelBlock

open Cert.KernelIdeal Cert.KernelIdeal.Gen Idealize.ShloMosaic Idealize.ShloMosaic.ValueIdx Cert.Shrink Cert.KernelRow

theorem hz3 : (![0, 0, 0] : Fin 3 → Nat) = fun _ => 0 := funext fun a => by fin_cases a <;> rfl
theorem hz2 : (![0, 0] : Fin 2 → Nat) = fun _ => 0 := funext fun a => by fin_cases a <;> rfl

/-- The stored block is the index-by-index function of the loaded blocks. -/
theorem out_eq (x0 : Vec Ideal S256x39x64 .f32) (x1 : Vec Ideal S39x13 .bf16) (x2 : Vec Ideal S13x39 .bf16)
    (x3 : Vec Ideal S39x13 .bf16) (x4 : Vec Ideal S13x39 .bf16) :
    out0_5 x0 x1 x2 x3 x4 = Value.E5 x0 x1 x2 x3 x4 := by
  unfold out0_5
  simp only [View.ld_unit_zero (S := S256x39x64) hz3, View.ld_unit_zero (S := S39x13) hz2, View.ld_unit_zero (S := S13x39) hz2]
  exact funext (Value.canon5_eq x0 x1 x2 x3 x4)

/-- Entry (p, f, e) of the stored block is the output of row p of the input block. -/
theorem out_apply (x0 : Vec Ideal S256x39x64 .f32) (x1 : Vec Ideal S39x13 .bf16) (x2 : Vec Ideal S13x39 .bf16)
    (x3 : Vec Ideal S39x13 .bf16) (x4 : Vec Ideal S13x39 .bf16) (p : Fin 256) (f : Fin 39) (e : Fin 128) :
    out0_5 x0 x1 x2 x3 x4 (ix3 p f e)
      = rowClip (fun i k => x0 (ix3 p i k)) (fun i j => x1 (ix2 i j)) (fun j f => x2 (ix2 j f))
          (fun i j => x3 (ix2 i j)) (fun j f => x4 (ix2 j f)) f e := by
  rw [out_eq]
  have hi : Value.ix5_0 (ix3 p f e) = ix3 p f (half e) := funext fun a => Fin.ext (by
    match a with
    | ⟨0, _⟩ => rfl
    | ⟨1, _⟩ => rfl
    | ⟨2, _⟩ => rfl)
  unfold rowClip
  by_cases h : e.val < 64
  · have hc : Value.csel5_0 (ix3 p f e) = (⟨0, by decide⟩ : Fin 2) := Fin.ext (Nat.div_eq_of_lt h)
    show Value.Cat5_0 x0 x1 x2 x3 x4 (Value.csel5_0 (ix3 p f e)) (Value.ix5_0 (ix3 p f e)) = _
    rw [hc, hi, if_pos h]
    exact weighted_apply x0 x1 x2 p f (half e)
  · have he : e.val < 128 := e.isLt
    have hc : Value.csel5_0 (ix3 p f e) = (⟨1, by decide⟩ : Fin 2) := Fin.ext (by
      show e.val / 64 = 1
      omega)
    show Value.Cat5_0 x0 x1 x2 x3 x4 (Value.csel5_0 (ix3 p f e)) (Value.ix5_0 (ix3 p f e)) = _
    rw [hc, hi, if_neg h]
    show x0 (ix3 p f (half e))
        - min (broadcastTo S256x39x64 (shapeCast S256x39x1 (k0_pay3 (F := Ideal) x0 x3 x4) shapeCasts_S256x39_S256x39x1) broadcasts_S256x39x1_S256x39x64 (ix3 p f (half e)))
            (max (broadcastTo S256x39x64 (subf (broadcast S256x39x1 (Scalar.ofBits (F := Ideal) .f32 0x00000000#32)) (shapeCast S256x39x1 (k0_pay3 (F := Ideal) x0 x3 x4) shapeCasts_S256x39_S256x39x1)) broadcasts_S256x39x1_S256x39x64 (ix3 p f (half e)))
              (x0 (ix3 p f (half e))))
      = clipForm _ _
    rw [spread_apply, LibFields.broadcastTo_ab1_abc_apply]
    show _ - min _ (max (Ideal.ofBits .f32 0x00000000#32 - shapeCast S256x39x1 (k0_pay3 (F := Ideal) x0 x3 x4) shapeCasts_S256x39_S256x39x1 (ix3 p f (0 : Fin 1))) _) = _
    rw [LibFields.shapeCast_ab_ab1_apply, thresholds_apply, Ideal.ofBits_zero_f32]
    rfl

/-- The same at any index of the block, by its coordinates. -/
theorem out_at (x0 : Vec Ideal S256x39x64 .f32) (x1 : Vec Ideal S39x13 .bf16) (x2 : Vec Ideal S13x39 .bf16)
    (x3 : Vec Ideal S39x13 .bf16) (x4 : Vec Ideal S13x39 .bf16) (y : S256x39x128.Idx) :
    out0_5 x0 x1 x2 x3 x4 y
      = rowClip (fun i k => x0 (ix3 (⟨(y 0).val, (y 0).isLt⟩ : Fin 256) i k)) (fun i j => x1 (ix2 i j)) (fun j f => x2 (ix2 j f))
          (fun i j => x3 (ix2 i j)) (fun j f => x4 (ix2 j f)) (⟨(y 1).val, (y 1).isLt⟩ : Fin 39) (⟨(y 2).val, (y 2).isLt⟩ : Fin 128) := by
  have h := out_apply x0 x1 x2 x3 x4 (⟨(y 0).val, (y 0).isLt⟩ : Fin 256) (⟨(y 1).val, (y 1).isLt⟩ : Fin 39) (⟨(y 2).val, (y 2).isLt⟩ : Fin 128)
  have ey : ix3 (⟨(y 0).val, (y 0).isLt⟩ : Fin 256) (⟨(y 1).val, (y 1).isLt⟩ : Fin 39) (⟨(y 2).val, (y 2).isLt⟩ : Fin 128) = y :=
    funext fun a => Fin.ext (by
      match a with
      | ⟨0, _⟩ => rfl
      | ⟨1, _⟩ => rfl
      | ⟨2, _⟩ => rfl)
  rwa [ey] at h

end Cert.KernelBlock

end
-- ==== Proof.Whole.lean ====
/-
  The whole result array as one function of the five argument arrays.

  Entry (b, f, e) of the result is the output of row b of the input array: a row's outputs depend on that row and on
  the four weight matrices only.  The array is written twice, once with the shrinkage spelt by clipping and once by
  sign and positive part; on an input array of real numbers the two are the same array.
-/
import proofs.«118509_j28080496181753_2_alg».proof.Proof.Shrink
import Idealize.ShloMosaic.Lib.ValueIdx

noncomputable section

namespace Cert.Whole

open Idealize.ShloMosaic Idealize.ShloMosaic.ValueIdx Cert.Shrink

/-- Row b of the input array: its 39 fields of 64 numbers. -/
def row (x : (⟨3, ![16384, 39, 64]⟩ : Shape).Idx → EReal) (b : Fin 16384) : Fin 39 → Fin 64 → EReal :=
  fun f k => x (ix3 b f k)

/-- A weight matrix by row and column. -/
def mat {a b : ℕ} (w : (⟨2, ![a, b]⟩ : Shape).Idx → EReal) : Fin a → Fin b → EReal := fun i j => w (ix2 i j)

/-- The result array, the shrinkage spelt by clipping, -/
def outClip (x : (⟨3, ![16384, 39, 64]⟩ : Shape).Idx → EReal) (w1 : (⟨2, ![39, 13]⟩ : Shape).Idx → EReal)
    (w2 : (⟨2, ![13, 39]⟩ : Shape).Idx → EReal) (w3 : (⟨2, ![39, 13]⟩ : Shape).Idx → EReal)
    (w4 : (⟨2, ![13, 39]⟩ : Shape).Idx → EReal) : (⟨3, ![16384, 39, 128]⟩ : Shape).Idx → EReal := fun i =>
  rowClip (row x ⟨(i 0).val, (i 0).isLt⟩) (mat w1) (mat w2) (mat w3) (mat w4) ⟨(i 1).val, (i 1).isLt⟩ ⟨(i 2).val, (i 2).isLt⟩

/-- and by sign and positive part. -/
def outSign (x : (⟨3, ![16384, 39, 64]⟩ : Shape).Idx → EReal) (w1 : (⟨2, ![39, 13]⟩ : Shape).Idx → EReal)
    (w2 : (⟨2, ![13, 39]⟩ : Shape).Idx → EReal) (w3 : (⟨2, ![39, 13]⟩ : Shape).Idx → EReal)
    (w4 : (⟨2, ![13, 39]⟩ : Shape).Idx → EReal) : (⟨3, ![16384, 39, 128]⟩ : Shape).Idx → EReal := fun i =>
  rowSign (row x ⟨(i 0).val, (i 0).isLt⟩) (mat w1) (mat w2) (mat w3) (mat w4) ⟨(i 1).val, (i 1).isLt⟩ ⟨(i 2).val, (i 2).isLt⟩

/-- On an input array of real numbers the two are one array. -/
theorem outClip_eq_outSign (x : (⟨3, ![16384, 39, 64]⟩ : Shape).Idx → EReal) (hx : ∀ i, ∃ r : ℝ, x i = (r : EReal))
    (w1 : (⟨2, ![39, 13]⟩ : Shape).Idx → EReal) (w2 : (⟨2, ![13, 39]⟩ : Shape).Idx → EReal)
    (w3 : (⟨2, ![39, 13]⟩ : Shape).Idx → EReal) (w4 : (⟨2, ![13, 39]⟩ : Shape).Idx → EReal) :
    outClip x w1 w2 w3 w4 = outSign x w1 w2 w3 w4 :=
  funext fun i => rowClip_eq_rowSign _ (fun f k => hx _) _ _ _ _ _ _

/-- Equal rows, matrices and positions give equal outputs. -/
theorem rowClip_congr {R R' : Fin 39 → Fin 64 → EReal} {W1 W1' W3 W3' : Fin 39 → Fin 13 → EReal}
    {W2 W2' W4 W4' : Fin 13 → Fin 39 → EReal} {f f' : Fin 39} {e e' : Fin 128}
    (hR : R = R') (h1 : W1 = W1') (h2 : W2 = W2') (h3 : W3 = W3') (h4 : W4 = W4') (hf : f = f') (he : e = e') :
    rowClip R W1 W2 W3 W4 f e = rowClip R' W1' W2' W3' W4' f' e' := by
  subst hR h1 h2 h3 h4 hf he; rfl

end Cert.Whole

end
-- ==== Proof.KernelArray.lean ====
/-
  From blocks to the array: the kernel's result as one function of its arguments.

  Grid point t reads rows 256·t … 256·t + 255 of the input array and the four weight matrices whole, and writes the
  same rows of the result.  What it writes is, row by row, the row's output, so every block written is the
  corresponding block of one whole-array function; the 64 blocks tile the result, and the result array ends holding
  that function.  The weight matrices the region reads are the arguments after a change of float format, which is
  the identity at the extended reals.
-/
import proofs.«118509_j28080496181753_2_alg».proof.Proof.KernelBlock
import proofs.«118509_j28080496181753_2_alg».proof.Proof.Whole
import Idealize.ShloMosaic.Lib.StableHlo.Run

set_option maxRecDepth 16384

noncomputable section

namespace Cert.KernelArray

open Cert.KernelIdeal Cert.KernelIdeal.Gen Idealize.ShloMosaic Idealize.ShloMosaic.TcCoe Idealize.SL.Sem
open Idealize.ShloMosaic.ValueIdx Cert.Shrink Cert.Whole
open Idealize.ShloMosaic.Pipeline (Dat)

variable (m : (ℓ : Loc nD τ sig) → Buf (Elt Ideal) ℓ) (ρ : Dev nD → PrngReg)

/-- The printed index maps over the 64 grid points: the input's and the result's block index is the point on the
    row axis and zero on the others; a weight matrix's is zero. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What point t writes back is block t of the whole-array function of the arrays the region finds. -/
theorem flushed_eq (c : Dev nD) (t : Fin cfg0.N) :
    (dats m 0 c).flushed 5 t = ((cfg0.win 5).blk t).view.read (Elt Ideal)
      (outClip (V m c main_arg0) (V m c main_v0) (V m c main_v1) (V m c main_v2) (V m c main_v3)) := by
  rw [Value.flushed5]
  obtain ⟨a0, a1, a2, o0, o1, o2, b0, b1, c0, c1, d0, d1, e0, e1⟩ := idx_facts t
  funext y
  show out0_5 (iblk m c 0 t) (iblk m c 1 t) (iblk m c 2 t) (iblk m c 3 t) (iblk m c 4 t) y
    = outClip (V m c main_arg0) (V m c main_v0) (V m c main_v1) (V m c main_v2) (V m c main_v3) (((cfg0.win 5).blk t).view.emb y)
  refine (KernelBlock.out_at (iblk m c 0 t) (iblk m c 1 t) (iblk m c 2 t) (iblk m c 3 t) (iblk m c 4 t) y).trans ?_
  unfold outClip
  refine rowClip_congr ?_ ?_ ?_ ?_ ?_ ?_ ?_
  · funext i k
    show V m c main_arg0 (((cfg0.win 0).blk t).view.emb (ix3 (⟨(y 0).val, (y 0).isLt⟩ : Fin 256) i k))
      = V m c main_arg0 (ix3 (⟨((((cfg0.win 5).blk t).view.emb y) 0).val, ((((cfg0.win 5).blk t).view.emb y) 0).isLt⟩ : Fin 16384) i k)
    refine congrArg _ (funext fun a => Fin.ext ?_)
    match a with
    | ⟨0, _⟩ =>
      show win0_0.index t (0 : Fin 3) * 256 + 1 * (y 0).val = win0_5.index t (0 : Fin 3) * 256 + 1 * (y 0).val
      rw [a0, o0]
    | ⟨1, _⟩ =>
      show win0_0.index t (1 : Fin 3) * 39 + 1 * i.val = i.val
      rw [a1]; omega
    | ⟨2, _⟩ =>
      show win0_0.index t (2 : Fin 3) * 64 + 1 * k.val = k.val
      rw [a2]; omega
  · funext i j
    show V m c main_v0 (((cfg0.win 1).blk t).view.emb (ix2 i j)) = V m c main_v0 (ix2 i j)
    refine congrArg _ (funext fun a => Fin.ext ?_)
    match a with
    | ⟨0, _⟩ => show win0_1.index t (0 : Fin 2) * 39 + 1 * i.val = i.val; rw [b0]; omega
    | ⟨1, _⟩ => show win0_1.index t (1 : Fin 2) * 13 + 1 * j.val = j.val; rw [b1]; omega
  · funext i j
    show V m c main_v1 (((cfg0.win 2).blk t).view.emb (ix2 i j)) = V m c main_v1 (ix2 i j)
    refine congrArg _ (funext fun a => Fin.ext ?_)
    match a with
    | ⟨0, _⟩ => show win0_2.index t (0 : Fin 2) * 13 + 1 * i.val = i.val; rw [c0]; omega
    | ⟨1, _⟩ => show win0_2.index t (1 : Fin 2) * 39 + 1 * j.val = j.val; rw [c1]; omega
  · funext i j
    show V m c main_v2 (((cfg0.win 3).blk t).view.emb (ix2 i j)) = V m c main_v2 (ix2 i j)
    refine congrArg _ (funext fun a => Fin.ext ?_)
    match a with
    | ⟨0, _⟩ => show win0_3.index t (0 : Fin 2) * 39 + 1 * i.val = i.val; rw [d0]; omega
    | ⟨1, _⟩ => show win0_3.index t (1 : Fin 2) * 13 + 1 * j.val = j.val; rw [d1]; omega
  · funext i j
    show V m c main_v3 (((cfg0.win 4).blk t).view.emb (ix2 i j)) = V m c main_v3 (ix2 i j)
    refine congrArg _ (funext fun a => Fin.ext ?_)
    match a with
    | ⟨0, _⟩ => show win0_4.index t (0 : Fin 2) * 13 + 1 * i.val = i.val; rw [e0]; omega
    | ⟨1, _⟩ => show win0_4.index t (1 : Fin 2) * 39 + 1 * j.val = j.val; rw [e1]; omega
  · refine Fin.ext ?_
    show (y 1).val = win0_5.index t (1 : Fin 3) * 39 + 1 * (y 1).val
    rw [o1]; omega
  · refine Fin.ext ?_
    show (y 2).val = win0_5.index t (2 : Fin 3) * 128 + 1 * (y 2).val
    rw [o2]; omega

/-- An index of the result is in point t's block iff each coordinate is in the block's range on its axis. -/
theorem mem_blk (t : Fin cfg0.N) (i : S16384x39x128.Idx) :
    i ∈ ((cfg0.win 5).blk t).view.set ↔ ∀ a : Fin 3, win0_5.index t a * S256x39x128.size a ≤ (i a).val
      ∧ (i a).val < win0_5.index t a * S256x39x128.size a + S256x39x128.size a := by
  show i ∈ ((View.whole main_v4).slice (win0_5.rect t)).set ↔ _
  rw [View.set_slice_whole, Rect.mem_set_unit]
  exact Iff.rfl

/-- Row b of the result lies in the block of point b / 256. -/
theorem cover (i : S16384x39x128.Idx) :
    ∃ t : Fin cfg0.N, (cfg0.win 5).flush t = true ∧ i ∈ ((cfg0.win 5).blk t).view.set := by
  have h0 : (i 0).val < 16384 := (i 0).isLt
  have h1 : (i 1).val < 39 := (i 1).isLt
  have h2 : (i 2).val < 128 := (i 2).isLt
  obtain ⟨t, ht⟩ : ∃ t : Fin cfg0.N, t.val = (i 0).val / 256 :=
    ⟨⟨(i 0).val / 256, by show _ < grid0.N; rw [N_0]; omega⟩, rfl⟩
  obtain ⟨-, -, -, o0, o1, o2, -⟩ := idx_facts t
  refine ⟨t, flush0_5 t, ?_⟩
  rw [mem_blk]
  intro a
  match a with
  | ⟨0, _⟩ =>
    show win0_5.index t (0 : Fin 3) * 256 ≤ (i 0).val ∧ (i 0).val < win0_5.index t (0 : Fin 3) * 256 + 256
    rw [o0, ht]; omega
  | ⟨1, _⟩ =>
    show win0_5.index t (1 : Fin 3) * 39 ≤ (i 1).val ∧ (i 1).val < win0_5.index t (1 : Fin 3) * 39 + 39
    rw [o1]; omega
  | ⟨2, _⟩ =>
    show win0_5.index t (2 : Fin 3) * 128 ≤ (i 2).val ∧ (i 2).val < win0_5.index t (2 : Fin 3) * 128 + 128
    rw [o2]; omega

/-- The result array after the run, over the arrays the region finds. -/
theorem final (c : Dev nD) : (dats m 0 c).arrAt 5 cfg0.N
    = outClip (V m c main_arg0) (V m c main_v0) (V m c main_v1) (V m c main_v2) (V m c main_v3) :=
  (dats m 0 c).arrAt_eq_of_cover 5 _ (fun t _ => flushed_eq m c t) cover

/-! ## The weight matrices the region reads are the arguments -/

theorem V_w1 (c : Dev nD) : (V m c main_v0 : S39x13.Idx → EReal) = m ((c : Thread nD τ).loc main_arg1) := by
  dsimp only [Gen.V, Gen.hostOps0]; after_results; rfl
theorem V_w2 (c : Dev nD) : (V m c main_v1 : S13x39.Idx → EReal) = m ((c : Thread nD τ).loc main_arg2) := by
  dsimp only [Gen.V, Gen.hostOps0]; after_results; rfl
theorem V_w3 (c : Dev nD) : (V m c main_v2 : S39x13.Idx → EReal) = m ((c : Thread nD τ).loc main_arg3) := by
  dsimp only [Gen.V, Gen.hostOps0]; after_results; rfl
theorem V_w4 (c : Dev nD) : (V m c main_v3 : S13x39.Idx → EReal) = m ((c : Thread nD τ).loc main_arg4) := by
  dsimp only [Gen.V, Gen.hostOps0]; after_results; rfl

/-- The result array after the run, as one function of the argument arrays. -/
theorem final_args (c : Dev nD) : (dats m 0 c).arrAt 5 cfg0.N
    = outClip (m ((c : Thread nD τ).loc main_arg0)) (m ((c : Thread nD τ).loc main_arg1)) (m ((c : Thread nD τ).loc main_arg2))
        (m ((c : Thread nD τ).loc main_arg3)) (m ((c : Thread nD τ).loc main_arg4)) := by
  rw [final, V_main_arg0, V_w1, V_w2, V_w3, V_w4]

/-- The kernel's run: the result at that function of the arguments, the arguments unchanged. -/
theorem run : θ_run defs (onTc (τ := τ) (main (F := Ideal))) ⟨m, fun _ => 0, ρ⟩ fun r => ∀ c : Dev nD,
      r.2.mem ((c : Thread nD τ).loc main_v4)
        = outClip (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_args m c), (h c).2⟩) (Value.run_blocks m ρ)

end Cert.KernelArray

end
-- ==== Proof.RefRow.lean ====
/-
  The reference, read at an entry.

  Each operation of the reference reads, at an index, its operands at an index; chaining these readings, the result
  at (b, f, e) is the output of row b of the input: the field means of row b through the two dense layers give the
  field's weight, the mean absolute values through the other two give the threshold, positions below 64 hold the
  weighted entries and the others the entry's sign times the positive part of its magnitude less the threshold.
-/
import proofs.«118509_j28080496181753_2_alg».proof.Proof.Gen.ReferenceIdeal.Read
import proofs.«118509_j28080496181753_2_alg».proof.Proof.Shrink
import Idealize.ShloMosaic.Lib.Pipeline.Value
import Idealize.ShloMosaic.Lib.ValueIdx
import Idealize.ShloMosaic.PureOps.Ideal.Laws

set_option maxRecDepth 16384

noncomputable section

open scoped BigOperators

namespace Cert.RefRow

open Cert.ReferenceIdeal Cert.ReferenceIdeal.Gen Cert.ReferenceIdeal.Read Idealize.ShloMosaic Idealize.ShloMosaic.ValueIdx Cert.Shrink

/-- The input array, -/
abbrev TX := (⟨S16384x39x64, .f32⟩ : BufTy).Contents (Elt Ideal)
/-- a first-layer weight matrix, -/
abbrev TW := (⟨S39x13, .f32⟩ : BufTy).Contents (Elt Ideal)
/-- a second-layer weight matrix. -/
abbrev TW' := (⟨S13x39, .f32⟩ : BufTy).Contents (Elt Ideal)

/-! ## The weighting branch -/

/-- The field means, at (b, f). -/
theorem gate_mean (x0 : TX) (b : Fin 16384) (f : Fin 39) :
    val_main_v2 (F := Ideal) x0 (ix2 b f) = mean fun k => x0 (ix3 b f k) := by
  rw [val_main_v2_apply, val_main_v0_apply, val_main_v1_apply, val_main_cst_0_apply, val_main_cst_apply]
  show Ideal.div (Ideal.ofBits .f32 0x00000000#32 + ∑ k : Fin 64, x0 (idx_main_v0 (ix2 b f) k)) c64
    = Ideal.div (∑ k, x0 (ix3 b f k)) c64
  rw [Ideal.ofBits_zero_f32, zero_add]
  refine congrArg (Ideal.div · c64) (Finset.sum_congr rfl fun k _ => congrArg x0 ?_)
  exact funext fun a => Fin.ext (by match a with | ⟨0, _⟩ => rfl | ⟨1, _⟩ => rfl | ⟨2, _⟩ => rfl)

/-- The first dense layer and its clamp, at (b, j). -/
theorem gate_layer1 (x0 : TX) (x1 : TW) (b : Fin 16384) (j : Fin 13) :
    val_main_v4 (F := Ideal) x0 x1 (ix2 b j)
      = squeeze (fun i => mean fun k => x0 (ix3 b i k)) (fun i j => x1 (ix2 i j)) j := by
  rw [val_main_v4_apply, val_main_v3_apply, val_main_call0_v0_apply, val_main_call0_cst_apply]
  show max (∑ k : Fin 39, val_main_v2 (F := Ideal) x0 (lidx_main_v3 (ix2 b j) k) * x1 (ridx_main_v3 (ix2 b j) k)) (Ideal.ofBits .f32 0x00000000#32) = _
  rw [Ideal.ofBits_zero_f32]
  refine congrArg (max · 0) (Finset.sum_congr rfl fun k _ => ?_)
  have el : lidx_main_v3 (ix2 b j) k = ix2 b k := funext fun a => Fin.ext (by match a with | ⟨0, _⟩ => rfl | ⟨1, _⟩ => rfl)
  have er : ridx_main_v3 (ix2 b j) k = ix2 k j := funext fun a => Fin.ext (by match a with | ⟨0, _⟩ => rfl | ⟨1, _⟩ => rfl)
  rw [el, er, gate_mean]

/-- The second dense layer and its clamp, at (b, f): the field's weight of row b. -/
theorem gate_layer2 (x0 : TX) (x1 : TW) (x2 : TW') (b : Fin 16384) (f : Fin 39) :
    val_main_v6 (F := Ideal) x0 x1 x2 (ix2 b f)
      = excite (fun i => mean fun k => x0 (ix3 b i k)) (fun i j => x1 (ix2 i j)) (fun j f => x2 (ix2 j f)) f := by
  rw [val_main_v6_apply, val_main_v5_apply, val_main_call1_v0_apply, val_main_call1_cst_apply]
  show max (∑ k : Fin 13, val_main_v4 (F := Ideal) x0 x1 (lidx_main_v5 (ix2 b f) k) * x2 (ridx_main_v5 (ix2 b f) k)) (Ideal.ofBits .f32 0x00000000#32) = _
  rw [Ideal.ofBits_zero_f32]
  refine congrArg (max · 0) (Finset.sum_congr rfl fun k _ => ?_)
  have el : lidx_main_v5 (ix2 b f) k = ix2 b k := funext fun a => Fin.ext (by match a with | ⟨0, _⟩ => rfl | ⟨1, _⟩ => rfl)
  have er : ridx_main_v5 (ix2 b f) k = ix2 k f := funext fun a => Fin.ext (by match a with | ⟨0, _⟩ => rfl | ⟨1, _⟩ => rfl)
  rw [el, er, gate_layer1]

/-- The weighted entries, at (b, f, k). -/
theorem weighted_apply (x0 : TX) (x1 : TW) (x2 : TW') (b : Fin 16384) (f : Fin 39) (k : Fin 64) :
    val_main_v9 (F := Ideal) x0 x1 x2 (ix3 b f k)
      = gated (fun i k => x0 (ix3 b i k)) (fun i j => x1 (ix2 i j)) (fun j f => x2 (ix2 j f)) f k := by
  rw [val_main_v9_apply, val_main_v8_apply, val_main_v7_apply]
  have e : idx_main_v7 (idx_main_v8 (ix3 b f k)) = ix2 b f := funext fun a => Fin.ext (by match a with | ⟨0, _⟩ => rfl | ⟨1, _⟩ => rfl)
  rw [e, gate_layer2]
  rfl

/-! ## The shrinking branch -/

/-- The field mean absolute values, at (b, f). -/
theorem shrink_mean (x0 : TX) (b : Fin 16384) (f : Fin 39) :
    val_main_v13 (F := Ideal) x0 (ix2 b f) = absMean fun k => x0 (ix3 b f k) := by
  rw [val_main_v13_apply, val_main_v11_apply, val_main_v12_apply, val_main_cst_2_apply, val_main_cst_1_apply]
  show Ideal.div (Ideal.ofBits .f32 0x00000000#32
      + ∑ k : Fin 64, max (x0 (idx_main_v11 (ix2 b f) k)) (-(x0 (idx_main_v11 (ix2 b f) k)))) c64
    = Ideal.div (∑ k, max (x0 (ix3 b f k)) (-(x0 (ix3 b f k)))) c64
  rw [Ideal.ofBits_zero_f32, zero_add]
  refine congrArg (Ideal.div · c64) (Finset.sum_congr rfl fun k _ => ?_)
  have e : idx_main_v11 (ix2 b f) k = ix3 b f k := funext fun a => Fin.ext (by match a with | ⟨0, _⟩ => rfl | ⟨1, _⟩ => rfl | ⟨2, _⟩ => rfl)
  rw [e]

/-- The first dense layer and its clamp, at (b, j). -/
theorem shrink_layer1 (x0 : TX) (x3 : TW) (b : Fin 16384) (j : Fin 13) :
    val_main_v15 (F := Ideal) x0 x3 (ix2 b j)
      = squeeze (fun i => absMean fun k => x0 (ix3 b i k)) (fun i j => x3 (ix2 i j)) j := by
  rw [val_main_v15_apply, val_main_v14_apply, val_main_call2_v0_apply, val_main_call2_cst_apply]
  show max (∑ k : Fin 39, val_main_v13 (F := Ideal) x0 (lidx_main_v14 (ix2 b j) k) * x3 (ridx_main_v14 (ix2 b j) k)) (Ideal.ofBits .f32 0x00000000#32) = _
  rw [Ideal.ofBits_zero_f32]
  refine congrArg (max · 0) (Finset.sum_congr rfl fun k _ => ?_)
  have el : lidx_main_v14 (ix2 b j) k = ix2 b k := funext fun a => Fin.ext (by match a with | ⟨0, _⟩ => rfl | ⟨1, _⟩ => rfl)
  have er : ridx_main_v14 (ix2 b j) k = ix2 k j := funext fun a => Fin.ext (by match a with | ⟨0, _⟩ => rfl | ⟨1, _⟩ => rfl)
  rw [el, er, shrink_mean]

/-- The second dense layer and its clamp, at (b, f): the field's weight of row b. -/
theorem shrink_layer2 (x0 : TX) (x3 : TW) (x4 : TW') (b : Fin 16384) (f : Fin 39) :
    val_main_v17 (F := Ideal) x0 x3 x4 (ix2 b f)
      = excite (fun i => absMean fun k => x0 (ix3 b i k)) (fun i j => x3 (ix2 i j)) (fun j f => x4 (ix2 j f)) f := by
  rw [val_main_v17_apply, val_main_v16_apply, val_main_call3_v0_apply, val_main_call3_cst_apply]
  show max (∑ k : Fin 13, val_main_v15 (F := Ideal) x0 x3 (lidx_main_v16 (ix2 b f) k) * x4 (ridx_main_v16 (ix2 b f) k)) (Ideal.ofBits .f32 0x00000000#32) = _
  rw [Ideal.ofBits_zero_f32]
  refine congrArg (max · 0) (Finset.sum_congr rfl fun k _ => ?_)
  have el : lidx_main_v16 (ix2 b f) k = ix2 b k := funext fun a => Fin.ext (by match a with | ⟨0, _⟩ => rfl | ⟨1, _⟩ => rfl)
  have er : ridx_main_v16 (ix2 b f) k = ix2 k f := funext fun a => Fin.ext (by match a with | ⟨0, _⟩ => rfl | ⟨1, _⟩ => rfl)
  rw [el, er, shrink_layer1]

/-- The thresholds, at (b, f). -/
theorem thres_apply (x0 : TX) (x3 : TW) (x4 : TW') (b : Fin 16384) (f : Fin 39) :
    val_main_v18 (F := Ideal) x0 x3 x4 (ix2 b f)
      = thres (fun i k => x0 (ix3 b i k)) (fun i j => x3 (ix2 i j)) (fun j f => x4 (ix2 j f)) f := by
  rw [val_main_v18_apply, shrink_mean, shrink_layer2]
  rfl

/-- The shrunk entries, at (b, f, k). -/
theorem shrunk_apply (x0 : TX) (x3 : TW) (x4 : TW') (b : Fin 16384) (f : Fin 39) (k : Fin 64) :
    val_main_v25 (F := Ideal) x0 x3 x4 (ix3 b f k)
      = signForm (x0 (ix3 b f k)) (thres (fun i k => x0 (ix3 b i k)) (fun i j => x3 (ix2 i j)) (fun j f => x4 (ix2 j f)) f) := by
  rw [val_main_v25_apply, val_main_v24_apply, val_main_v23_apply, val_main_v21_apply, val_main_v10_apply,
    val_main_v20_apply, val_main_v19_apply, val_main_v22_apply, val_main_cst_3_apply]
  have e : idx_main_v19 (idx_main_v20 (ix3 b f k)) = ix2 b f := funext fun a => Fin.ext (by match a with | ⟨0, _⟩ => rfl | ⟨1, _⟩ => rfl)
  rw [e, thres_apply]
  show Ideal.sign (x0 (ix3 b f k)) * max (max (x0 (ix3 b f k)) (-(x0 (ix3 b f k))) - _) (Ideal.ofBits .f32 0x00000000#32) = _
  rw [Ideal.ofBits_zero_f32]
  rfl

/-! ## The two halves joined -/

/-- The reference's result at (b, f, e) is the output of row b of the input. -/
theorem result_apply (x0 : TX) (x1 : TW) (x2 : TW') (x3 : TW) (x4 : TW') (b : Fin 16384) (f : Fin 39) (e : Fin 128) :
    val_main_v26 (F := Ideal) x0 x1 x2 x3 x4 (ix3 b f e)
      = rowSign (fun i k => x0 (ix3 b i k)) (fun i j => x1 (ix2 i j)) (fun j f => x2 (ix2 j f))
          (fun i j => x3 (ix2 i j)) (fun j f => x4 (ix2 j f)) f e := by
  unfold val_main_v26 rowSign
  have he : e.val < 128 := e.isLt
  by_cases h : e.val < 64
  · rw [if_pos h]
    refine (concatenate_pair_apply_left (t := S16384x39x128) (s₁ := S16384x39x64) (s₂ := S16384x39x64) (2 : Fin 3) (val_main_v9 (F := Ideal) x0 x1 x2) (val_main_v25 (F := Ideal) x0 x3 x4) concatenates_S16384x39x64_S16384x39x64_S16384x39x128_d2
      (ix3 b f e) rfl (ix3 b f (half e)) (fun bx => ?_)).trans (weighted_apply x0 x1 x2 b f (half e))
    match bx with
    | ⟨0, _⟩ => rfl
    | ⟨1, _⟩ => rfl
    | ⟨2, _⟩ => exact Nat.mod_eq_of_lt h
  · rw [if_neg h]
    refine (concatenate_pair_apply_right (t := S16384x39x128) (s₁ := S16384x39x64) (s₂ := S16384x39x64) (2 : Fin 3) (val_main_v9 (F := Ideal) x0 x1 x2) (val_main_v25 (F := Ideal) x0 x3 x4) concatenates_S16384x39x64_S16384x39x64_S16384x39x128_d2
      (ix3 b f e) rfl rfl (ix3 b f (half e)) (fun bx hb => ?_) ?_).trans (shrunk_apply x0 x3 x4 b f (half e))
    · match bx with
      | ⟨0, _⟩ => rfl
      | ⟨1, _⟩ => rfl
      | ⟨2, _⟩ => exact absurd rfl hb
    · show e.val % 64 + 64 = e.val
      omega

end Cert.RefRow

end
-- ==== Proof.Finite.lean ====
/-
  What the precondition says of the input array.

  The precondition is a conjunction of five tests, one per argument: every entry's absolute value is below plus
  infinity.  Of the first argument this says that no entry is plus or minus infinity, so every entry is a real
  number.
-/
import proofs.«118509_j28080496181753_2_alg».proof.Pre_finite_inputs
import proofs.«118509_j28080496181753_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Finite

open Cert.Pre_finite_inputs Idealize.ShloMosaic

instance : Subsingleton S_.Idx := ⟨fun a b => funext fun d => d.elim0⟩

/-- The f32 word of plus infinity is the greatest extended real. -/
theorem ofBits_inf : Ideal.ofBits .f32 0x7F800000#32 = ⊤ := by
  simp [Ideal.ofBits, Ideal.ieee]

/-- Under the precondition every entry of the first argument is a real number. -/
theorem real_of_pre (a0 : FVec Ideal S16384x39x64 .f32) (a1 : FVec Ideal S39x13 .f32) (a2 : FVec Ideal S13x39 .f32)
    (a3 : FVec Ideal S39x13 .f32) (a4 : FVec Ideal S13x39 .f32)
    (h : fn (F := Ideal) a0 a1 a2 a3 a4 = fun _ => 1#1) (i : S16384x39x64.Idx) : ∃ r : ℝ, a0 i = (r : EReal) := by
  have h0 := congrFun h ValueIdx.ix0
  dsimp only [fn, fn_part1] at h0
  have hv3 := (IntOp.andi_eq_one.mp (IntOp.andi_eq_one.mp (IntOp.andi_eq_one.mp (IntOp.andi_eq_one.mp h0).1).1).1).1
  have hi := Host.reduce_andi_all _ _ _ _ ValueIdx.ix0 hv3 i
  have hb : broadcastInDim S16384x39x64 ![] Facts.bcast_S_S16384x39x64 (constant (F := Ideal) S_ .f32 0x7F800000#32) i
      = Ideal.ofBits .f32 0x7F800000#32 :=
    broadcastInDim_apply _ _ _ i (fun a => a.elim0) (fun a => a.elim0)
  have hc : Ideal.cmp .olt (max (a0 i) (-(a0 i)))
      (broadcastInDim S16384x39x64 ![] Facts.bcast_S_S16384x39x64 (constant (F := Ideal) S_ .f32 0x7F800000#32) i) = 1#1 := hi
  rw [hb, ofBits_inf] at hc
  have hbool : ∀ b : Bool, BitVec.ofBool b = 1#1 → b = true := fun b => by cases b <;> decide
  have hlt : max (a0 i) (-(a0 i)) < ⊤ := of_decide_eq_true (hbool _ hc)
  have h1 : a0 i ≠ ⊤ := fun e => by rw [e] at hlt; simp at hlt
  have h2 : a0 i ≠ ⊥ := fun e => by rw [e] at hlt; simp at hlt
  exact ⟨(a0 i).toReal, (EReal.coe_toReal h1 h2).symm⟩

end Cert.Finite

end
-- ==== Proof.lean ====
/-
  The certificate: the kernel and its reference compute one function of their arguments.

  Both programs take a [16384, 39, 64] array of rows of 39 fields and four small weight matrices.  For each row they
  average every field (and every field's absolute values), pass the averages through two dense layers with clamps at
  zero, and write, per field, the 64 entries times the field's weight followed by the 64 entries shrunk towards zero
  by the field's threshold.  The kernel does it 256 rows per grid point, with its weight matrices passed through a
  change of float format, and shrinks an entry as the entry less its clipping to plus or minus the threshold; the
  reference works on the whole array and shrinks an entry as its sign times the positive part of its magnitude less
  the threshold.  At the extended reals the format changes are the identity, the matrix products and the sums are
  the same sums, the threshold is never negative, and on a real entry the two shrinkages agree; the precondition
  makes every entry real.  The frames are the generated ones; the idealization rewrote nothing.
-/
import proofs.«118509_j28080496181753_2_alg».proof.Defs
import proofs.«118509_j28080496181753_2_alg».proof.Proof.Gen.Kernel
import proofs.«118509_j28080496181753_2_alg».proof.Proof.Gen.Kernel.Frame
import proofs.«118509_j28080496181753_2_alg».proof.Proof.Gen.KernelIdeal
import proofs.«118509_j28080496181753_2_alg».proof.Proof.Gen.KernelIdeal.Frame
import proofs.«118509_j28080496181753_2_alg».proof.Proof.Gen.KernelIdeal.Value
import proofs.«118509_j28080496181753_2_alg».proof.Proof.Gen.ReferenceIdeal
import proofs.«118509_j28080496181753_2_alg».proof.Proof.Gen.ReferenceIdeal.Run
import proofs.«118509_j28080496181753_2_alg».proof.Proof.Gen.ReferenceIdeal.Read
import proofs.«118509_j28080496181753_2_alg».proof.Proof.Gen.Pre_finite_inputs
import proofs.«118509_j28080496181753_2_alg».proof.Proof.KernelArray
import proofs.«118509_j28080496181753_2_alg».proof.Proof.RefRow
import proofs.«118509_j28080496181753_2_alg».proof.Proof.Finite
import proofs.«118509_j28080496181753_2_alg».proof.Proof.Whole
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The reference's result array is the whole-array function, the shrinkage spelt by sign and positive part. -/
theorem reference_eq (x0 : RefRow.TX) (x1 : RefRow.TW) (x2 : RefRow.TW') (x3 : RefRow.TW) (x4 : RefRow.TW') :
    Cert.ReferenceIdeal.Read.val_main_v26 (F := Ideal) x0 x1 x2 x3 x4 = Whole.outSign x0 x1 x2 x3 x4 := by
  funext i
  have h := RefRow.result_apply x0 x1 x2 x3 x4 (⟨(i 0).val, (i 0).isLt⟩ : Fin 16384) (⟨(i 1).val, (i 1).isLt⟩ : Fin 39)
    (⟨(i 2).val, (i 2).isLt⟩ : Fin 128)
  have ei : ix3 (⟨(i 0).val, (i 0).isLt⟩ : Fin 16384) (⟨(i 1).val, (i 1).isLt⟩ : Fin 39) (⟨(i 2).val, (i 2).isLt⟩ : Fin 128) = i :=
    funext fun a => Fin.ext (by
      match a with
      | ⟨0, _⟩ => rfl
      | ⟨1, _⟩ => rfl
      | ⟨2, _⟩ => rfl)
  rw [ei] at h
  exact h

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the whole-array function of the arguments: the kernel's by its blocks and, the
    input being real under the precondition, the agreement of the two shrinkages; the reference's by its
    operations read one at a time. -/
theorem algebraic : Cert.algebraic_KernelIdeal_ReferenceIdeal := by
  intro m ρ m' ρ' hpre hagree
  refine ⟨fun c => Whole.outSign (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (KernelArray.run m ρ)
    exact Whole.outClip_eq_outSign _ (Finite.real_of_pre _ _ _ _ _ (hpre c)) _ _ _ _
  · refine (θ_run Cert.ReferenceIdeal.defs _ _).mono (fun r h c => ⟨?_, (h c).2⟩)
      (Cert.ReferenceIdeal.Value.run (F := Ideal) m' ρ')
    rw [(h c).1, Cert.ReferenceIdeal.Read.val_main_v26_eq, reference_eq, (hagree c).1, (hagree c).2.1, (hagree c).2.2.1,
      (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
